-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S1x4096 : Shape := ⟨2, ![1, 4096]⟩
abbrev S128x4096 : Shape := ⟨2, ![128, 4096]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S128x4096, .f32⟩
  | .local _ .vmem, ⟨5, _⟩ => ⟨S128x4096, .f32⟩
  | .local _ .vmem, ⟨6, _⟩ => ⟨S4096x4096, .bf16⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S8192x4096.size a
  hwx1_3 : ∀ i : grid1.Coords, EltTy.bits .f32 = 32 ∨ (Rect.block (s := S8192x4096) S128x4096.size (cc1_transform_3 i) (hinb1_3 i)).WholeWords (EltTy.packing .f32)

variable [Facts₀]

def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096, .i1⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, on the extended reals.

  A binary linear layer: every weight and every bias entry is first replaced by +1 or -1 — +1 where the entry is
  at least zero, -1 where it is below zero (so zero counts as positive) — and the layer is then an ordinary affine map,

      out (t, o) = Σ_i x (t, i) · pm (w (o, i)) + pm (b o).

  The weight matrix is stored output-major ([out, in]), so the contraction runs over the second coordinate of both
  `x` and `w`. The three constants 0, 1 and -1 are kept as the float words the programs write; the same words stand
  on both sides, so they are never evaluated.
-/
import Idealize.ShloMosaic.PureOps.Ideal
import Idealize.ShloMosaic.Lib.ValueIdx

noncomputable section

namespace Cert.BinaryLinear

open Idealize.ShloMosaic Idealize.ShloMosaic.ValueIdx

/-- The two-valued sign: +1 at and above zero, -1 below it. -/
def pm (z : EReal) : EReal :=
  Scalar.select (FloatOps.cmpf (F := Ideal) (φ := .f32) .oge z (FloatOps.ofBits (F := Ideal) .f32 0x00000000#32))
    (FloatOps.ofBits (F := Ideal) .f32 0x3F800000#32) (FloatOps.ofBits (F := Ideal) .f32 0xBF800000#32)

/-- One entry of the layer's output, at row `t` (a token) and column `o` (an output feature). -/
def outAt (x : (⟨2, ![8192, 4096]⟩ : Shape).Idx → EReal) (w : (⟨2, ![4096, 4096]⟩ : Shape).Idx → EReal)
    (b : (⟨1, ![4096]⟩ : Shape).Idx → EReal) (t : Fin 8192) (o : Fin 4096) : EReal :=
  (∑ k : Fin 4096, x (ix2 t k) * pm (w (ix2 o k))) + pm (b (ix1 o))

/-- The whole output array. -/
def out (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => outAt x w b (i 0) (i 1)

theorem out_ix2 (x : (⟨2, ![8192, 4096]⟩ : Shape).Idx → EReal) (w : (⟨2, ![4096, 4096]⟩ : Shape).Idx → EReal)
    (b : (⟨1, ![4096]⟩ : Shape).Idx → EReal) (t : Fin 8192) (o : Fin 4096) :
    out x w b (ix2 t o) = outAt x w b t o := rfl

end Cert.BinaryLinear

end
-- ==== Proof.RefSide.lean ====
/-
  The reference computes the binary linear layer.

  Read one stage at a time: the weight matrix is compared with zero and turned into ±1 entry by entry, the
  contraction of `x` with it runs over the second coordinate of both (a sum over `k` of x (t, k) · pm (w (o, k))), the
  bias vector is turned into ±1 the same way, laid out as one row and repeated down the rows, and added.
-/
import proofs.«127940_j31353261261103_2_alg».proof.Proof.Gen.ReferenceIdeal.Read
import proofs.«127940_j31353261261103_2_alg».proof.Proof.Spec

noncomputable section

namespace Cert.BinaryLinear.Ref

open Idealize.ShloMosaic Idealize.ShloMosaic.ValueIdx Cert.ReferenceIdeal Cert.ReferenceIdeal.Read Cert.BinaryLinear

/-- The ±1 weight matrix, entry by entry. -/
theorem weights_at (x1 : (⟨S4096x4096, .f32⟩ : BufTy).Contents (Elt Ideal)) (j : S4096x4096.Idx) :
    val_main_v3 (F := Ideal) x1 j = pm (x1 j) := by
  rw [val_main_v3_apply, val_main_v2_apply, val_main_v1_apply, val_main_v0_apply, val_main_cst_apply,
    val_main_call0_v0_apply, val_main_cst_0_apply, val_main_call0_v1_apply, val_main_cst_1_apply]
  rfl

/-- The ±1 bias vector, entry by entry. -/
theorem bias_at (x2 : (⟨S4096, .f32⟩ : BufTy).Contents (Elt Ideal)) (j : S4096.Idx) :
    val_main_v7 (F := Ideal) x2 j = pm (x2 j) := by
  rw [val_main_v7_apply, val_main_v6_apply, val_main_v5_apply, val_main_v4_apply, val_main_cst_2_apply,
    val_main_call1_v0_apply, val_main_cst_3_apply, val_main_call1_v1_apply, val_main_cst_4_apply]
  rfl

/-- The left factor of the contraction at (t, o) and `k` is x (t, k). -/
theorem lidx_eq (t : Fin 8192) (o : Fin 4096) (k : Fin 4096) : lidx_main_v8 (ix2 t o) k = ix2 t k :=
  funext fun a => Fin.ext (by match a with | ⟨0, _⟩ => rfl | ⟨1, _⟩ => rfl)

/-- The right factor is the weight row of the output feature: w (o, k). -/
theorem ridx_eq (t : Fin 8192) (o : Fin 4096) (k : Fin 4096) : ridx_main_v8 (ix2 t o) k = ix2 o k :=
  funext fun a => Fin.ext (by match a with | ⟨0, _⟩ => rfl | ⟨1, _⟩ => rfl)

/-- The bias row repeated down the rows reads, at (t, o), the bias entry `o`. -/
theorem bidx_eq (t : Fin 8192) (o : Fin 4096) : idx_main_v9 (idx_main_v10 (ix2 t o)) = ix1 o :=
  funext fun a => Fin.ext (by match a with | ⟨0, _⟩ => rfl)

/-- The reference's result is the layer's output, as whole arrays. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v11 (F := Ideal) x0 x1 x2 = out x0 x1 x2 := by
  funext i
  obtain ⟨t, o, rfl⟩ : ∃ (t : Fin 8192) (o : Fin 4096), i = ix2 t o := ⟨i 0, i 1, eq_ix2 i⟩
  rw [out_ix2, val_main_v11_apply, val_main_v8_apply, val_main_v10_apply, val_main_v9_apply, bias_at, bidx_eq]
  simp only [weights_at, lidx_eq, ridx_eq]
  rfl

end Cert.BinaryLinear.Ref

end
-- ==== Proof.KernelRun.lean ====
/-
  The kernel program's run, with its result named.

  The program is two launches with one host reshape between them. Its run is assembled from three segments; the state
  at the end holds every buffer at the contents the last segment leaves. Reading that final state at the result buffer
  as well as at the three arguments gives the run's post: the result is what the second launch left there, and the
  arguments are as launched.
-/
import proofs.«127940_j31353261261103_2_alg».proof.Proof.Gen.KernelIdeal.Frame

set_option maxRecDepth 16384

noncomputable section

namespace Cert.BinaryLinear.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; at the end the result buffer holds what
    the second launch's write-backs left in it, and the three arguments are as launched. -/
theorem run_result : θ_run defs (onTc (τ := τ) (main (F := F))) ⟨m, fun _ => 0, ρ⟩ (fun r => ∀ c : Dev nD,
      r.2.mem ((c.tc : Thread nD τ).loc main_v2) = V3 m ρ c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.BinaryLinear.Kern

end
-- ==== Proof.LibDenseT.lean ====
/-
  General lemmas for a matrix product whose right operand is stored transposed, over variable extents, at the
  extended reals.

  * `trans_sum`: for the dimension numbers "M×K by N×K" (contract the left operand's axis 1 with the right
    operand's axis 1, no batch axis), the sum over the contraction index of the operands' products at the result
    index (i, j) is `∑ k : Fin K, l (i, k) * r (j, k)`.
  * `matmul_zero_trans` / `dotGeneral_trans`: hence a vector-unit matrix product into a zero accumulator, and the
    host's `dot_general`, read at (i, j), are both that sum.
-/
import Idealize.ShloMosaic.Lib.ValueIdx
import Idealize.ShloMosaic.Lib.Pipeline.Value
import Idealize.ShloMosaic.PureOps.Ideal.Laws

noncomputable section

namespace Cert.LibDenseT

open Idealize.ShloMosaic Idealize.ShloMosaic.ValueIdx

/-- The dimension numbers `<[1], [1], [0], [0], [], []>` over any well-formedness witness: two records with these
    axis lists differ only in that witness, so every printed record of this kind is one of these by unfolding. -/
abbrev transOf {M K N : Nat}
    (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  { lhsContracting := [1], rhsContracting := [1], lhsNonContracting := [0], rhsNonContracting := [0],
    lhsBatch := [], rhsBatch := [], wf := wf }

variable {M K N : Nat} (wf : DotDims.WF (⟨2, ![M, K]⟩ : Shape) ⟨2, ![N, K]⟩ ⟨2, ![M, N]⟩ [1] [1] [0] [0] [] [])

/-- The left operand's row is the result's row. -/
theorem lhs_row (i : (⟨2, ![M, N]⟩ : Shape).Idx) (q : (transOf wf).contr.Idx) :
    ((transOf wf).lhsIdx i q 0).val = (i 0).val := by
  unfold DotDims.lhsIdx
  rw [dif_neg (show ¬(0 : Fin 2) ∈ (transOf wf).lhsBatch from List.not_mem_nil),
    dif_pos (show (0 : Fin 2) ∈ (transOf wf).lhsNonContracting from List.mem_singleton.mpr rfl)]
  rfl

/-- The right operand's row is the result's column. -/
theorem rhs_row (i : (⟨2, ![M, N]⟩ : Shape).Idx) (q : (transOf wf).contr.Idx) :
    ((transOf wf).rhsIdx i q 0).val = (i 1).val := by
  unfold DotDims.rhsIdx
  rw [dif_neg (show ¬(0 : Fin 2) ∈ (transOf wf).rhsBatch from List.not_mem_nil),
    dif_pos (show (0 : Fin 2) ∈ (transOf wf).rhsNonContracting from List.mem_singleton.mpr rfl)]
  rfl

/-- The contraction sum at (i, j), re-indexed by the one contracted coordinate. -/
theorem trans_sum (l : (⟨2, ![M, K]⟩ : Shape).Idx → EReal) (r : (⟨2, ![N, K]⟩ : Shape).Idx → EReal)
    (i : Fin M) (j : Fin N) :
    ∑ q : (transOf wf).contr.Idx, l ((transOf wf).lhsIdx (ix2 i j) q) * r ((transOf wf).rhsIdx (ix2 i j) q)
      = ∑ k : Fin K, l (ix2 i k) * r (ix2 j k) := by
  rw [← Equiv.sum_comp (contrEquiv1 (transOf wf) K rfl rfl).symm]
  refine Finset.sum_congr rfl fun k _ => ?_
  have hk := contrEquiv1_symm_val (transOf wf) K rfl rfl k
  have el : (transOf wf).lhsIdx (ix2 i j) ((contrEquiv1 (transOf wf) K rfl rfl).symm k) = ix2 i k :=
    funext fun a => Fin.ext (by
      match a with
      | ⟨0, _⟩ => exact lhs_row wf _ _
      | ⟨1, _⟩ => exact ((transOf wf).lhsIdx_val_of_single rfl _ _).trans hk)
  have er : (transOf wf).rhsIdx (ix2 i j) ((contrEquiv1 (transOf wf) K rfl rfl).symm k) = ix2 j k :=
    funext fun a => Fin.ext (by
      match a with
      | ⟨0, _⟩ => exact rhs_row wf _ _
      | ⟨1, _⟩ => exact ((transOf wf).rhsIdx_val_of_single rfl _ _).trans hk)
  rw [el, er]

/-- A matrix product on the vector unit into the zero accumulator, read at (i, j). -/
theorem matmul_zero_trans {φ₁ φ₂ : FTy} (prec : Option ContractPrecision)
    (l : FVec Ideal (⟨2, ![M, K]⟩ : Shape) φ₁) (r : FVec Ideal (⟨2, ![N, K]⟩ : Shape) φ₂) (i : Fin M) (j : Fin N) :
    FloatOps.matmul (transOf wf) prec l r (constant (⟨2, ![M, N]⟩ : Shape) .f32 0x00000000#32) (ix2 i j)
      = ∑ k : Fin K, l (ix2 i k) * r (ix2 j k) :=
  (Ideal.matmul_constant_zero_apply (transOf wf) prec l r (ix2 i j)).trans (trans_sum wf l r i j)

/-- The host's `dot_general` with the same dimension numbers, read at (i, j): the same sum. -/
theorem dotGeneral_trans {φ₁ φ₂ : FTy} (prec : Option ContractPrecision) (sched : HostSchedule)
    (l : FVec Ideal (⟨2, ![M, K]⟩ : Shape) φ₁) (r : FVec Ideal (⟨2, ![N, K]⟩ : Shape) φ₂) (i : Fin M) (j : Fin N) :
    FloatOps.dotGeneral (transOf wf) prec sched l r (ix2 i j) = ∑ k : Fin K, l (ix2 i k) * r (ix2 j k) :=
  (Ideal.dotGeneral_apply (transOf wf) prec sched l r (ix2 i j)).trans (trans_sum wf l r i j)

end Cert.LibDenseT

end
-- ==== Proof.Bodies.lean ====
/-
  The two kernel bodies, read at one entry of what they store.

  The first body turns a block of the weight matrix into ±1 entry by entry (and changes the float format, which is
  the identity on the extended reals). The second multiplies a block of 128 rows of `x` with the whole ±1 weight
  matrix, contracting the second coordinate of both, into a zero accumulator, and adds the ±1 of the bias row,
  repeated down the 128 rows.
-/
import proofs.«127940_j31353261261103_2_alg».proof.Proof.Gen.KernelIdeal.Skeleton
import proofs.«127940_j31353261261103_2_alg».proof.Proof.Spec
import proofs.«127940_j31353261261103_2_alg».proof.Proof.LibDenseT
import Idealize.ShloMosaic.Lib.ValueLayout

noncomputable section

namespace Cert.BinaryLinear.Kern

open Idealize.ShloMosaic Idealize.ShloMosaic.ValueIdx Cert.KernelIdeal Cert.KernelIdeal.Gen Cert.BinaryLinear

/-- The sign-quantising body: entry `j` of what it stores is ±1 by the sign of entry `j` of what it loaded. -/
theorem quant_at (x : Vec Ideal S256x4096 .f32) (j : S256x4096.Idx) : k0_pay1 (F := Ideal) x j = pm (x j) := rfl

/-- The printed contraction record is the "rows by rows" one: contract axis 1 of both operands. -/
theorem dims_eq : dot_S128x4096_S4096x4096_S128x4096_1_1_0_0_n_n
    = LibDenseT.transOf (M := 128) (K := 4096) (N := 4096) Facts₀.dot_S128x4096_S4096x4096_S128x4096_1_1_0_0_n_n_wf := rfl

/-- The matrix-product body at row `p` of its block and column `o`: the row of `x` against weight row `o`, plus the
    ±1 of bias entry `o`. The weights arrive already as ±1 (`sw`); the bias arrives raw, as one row. -/
theorem matmul_at (x : Vec Ideal S128x4096 .f32) (sw : Vec Ideal S4096x4096 .bf16) (b : Vec Ideal S1x4096 .f32)
    (p : Fin 128) (o : Fin 4096) :
    k1_pay1 (F := Ideal) x sw b (ix2 p o) = (∑ k : Fin 4096, x (ix2 p k) * sw (ix2 o k)) + pm (b (ix2 (0 : Fin 1) o)) := by
  unfold k1_pay1
  refine (addf_apply _ _ _).trans ?_
  refine congrArg₂ (· + ·) ?_ ?_
  · rw [dims_eq]
    refine (LibDenseT.matmul_zero_trans _ none _ _ p o).trans ?_
    refine Finset.sum_congr rfl fun k _ => ?_
    rw [shapeCast_self]
    rfl
  · refine (broadcastTo_1b_ab_apply _ _ p o).trans ?_
    rw [shapeCast_self]
    rfl

end Cert.BinaryLinear.Kern

end
-- ==== Proof.QuantArray.lean ====
/-
  The first launch, as a whole array: after it the quantised weight buffer holds ±1 of the weight matrix, entry by
  entry.

  The launch walks 16 blocks of 256 whole rows. The weight window and the result window sit on the same block at every
  point, so what a point writes back is its block of the one whole-array function "±1 of the weight at this index",
  and the 16 blocks together cover every row.
-/
import proofs.«127940_j31353261261103_2_alg».proof.Proof.Gen.KernelIdeal.Frame
import proofs.«127940_j31353261261103_2_alg».proof.Proof.Bodies
import Idealize.ShloMosaic.Lib.Pipeline.Value

set_option maxRecDepth 16384

noncomputable section

namespace Cert.BinaryLinear.Kern

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.BinaryLinear

variable (V : (c : Dev nD) → (b : Ref sig .tc) → Buf (Elt Ideal) ((c : Thread nD τ).loc b))

theorem zero_offsets : (![0, 0] : Fin 2 → Nat) = fun _ => 0 := funext fun a => by fin_cases a <;> rfl

/-- Where the two windows' blocks sit at a point: both on row block `t`, at column block 0. -/
theorem quant_blocks : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- The whole-array function the first launch computes. -/
abbrev signs (c : Dev nD) : S4096x4096.Idx → EReal := fun j => pm (V c main_arg1 j)

/-- What point `t` writes back is block `t` of ±1 of the weight matrix. -/
theorem quant_flushed (c : Dev nD) (t : Fin cfg0.N) :
    (dat0 V c).flushed 1 t = ((cfg0.win 1).blk t).view.read (Elt Ideal) (signs V c) := by
  show (cfg0.win 1).cut (grid0.coords t) ((dat0 V c).after 1 t) = _
  rw [after0_1]
  unfold out0_1
  rw [View.canon_unit_zero zero_offsets]
  simp only [View.ld_unit_zero (S := S256x4096) zero_offsets]
  obtain ⟨e0, e1, -, -⟩ := quant_blocks t
  funext j
  show pm (V c main_arg1 (((cfg0.win 0).blk t).view.emb j)) = pm (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; rw [e0]
    | ⟨1, _⟩ => show win0_0.index t (1 : Fin 2) * 4096 + 1 * (j 1).val = win0_1.index t (1 : Fin 2) * 4096 + 1 * (j 1).val; rw [e1]
  rw [h0]

/-- An index is in point `t`'s block iff each coordinate is in the block's range on its axis. -/
theorem quant_mem (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Row `r` lies in block `r / 256`: the 16 blocks cover the matrix. -/
theorem quant_cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : grid0.N = 16 := N_0
  have ht : (i 0).val / 256 < grid0.N := by rw [hN]; omega
  obtain ⟨-, -, e2, e3⟩ := quant_blocks ⟨(i 0).val / 256, ht⟩
  refine ⟨⟨(i 0).val / 256, ht⟩, flush0_1 _, ?_⟩
  rw [quant_mem]
  intro a
  match a with
  | ⟨0, _⟩ =>
    show win0_1.index ⟨(i 0).val / 256, ht⟩ (0 : Fin 2) * 256 ≤ (i 0).val ∧ (i 0).val < win0_1.index ⟨(i 0).val / 256, ht⟩ (0 : Fin 2) * 256 + 256
    rw [e2]; show (i 0).val / 256 * 256 ≤ (i 0).val ∧ (i 0).val < (i 0).val / 256 * 256 + 256; omega
  | ⟨1, _⟩ =>
    show win0_1.index ⟨(i 0).val / 256, ht⟩ (1 : Fin 2) * 4096 ≤ (i 1).val ∧ (i 1).val < win0_1.index ⟨(i 0).val / 256, ht⟩ (1 : Fin 2) * 4096 + 4096
    rw [e3]; omega

/-- The quantised weight buffer after the first launch. -/
theorem quant_final (c : Dev nD) : (dat0 V c).arrAt 1 cfg0.N = signs V c :=
  (dat0 V c).arrAt_eq_of_cover 1 (signs V c) (fun t _ => quant_flushed V c t) quant_cover

end Cert.BinaryLinear.Kern

end
-- ==== Proof.Layer.lean ====
/-
  The second launch's function, stated apart from where its operands come from: an affine layer over a weight
  matrix stored output-major and taken as it is, with the bias given as one row and turned into ±1.

      layer x sw b (t, o) = Σ_k x (t, k) · sw (o, k) + pm (b (0, o))

  With `sw` the ±1 of the weights and `b` the bias vector laid out as a row, this is the binary linear layer.
-/
import proofs.«127940_j31353261261103_2_alg».proof.Proof.Spec
import Idealize.ShloMosaic.Lib.ValueLayout

noncomputable section

namespace Cert.BinaryLinear

open Idealize.ShloMosaic Idealize.ShloMosaic.ValueIdx

def layerAt (x : (⟨2, ![8192, 4096]⟩ : Shape).Idx → EReal) (sw : (⟨2, ![4096, 4096]⟩ : Shape).Idx → EReal)
    (b : (⟨2, ![1, 4096]⟩ : Shape).Idx → EReal) (t : Fin 8192) (o : Fin 4096) : EReal :=
  (∑ k : Fin 4096, x (ix2 t k) * sw (ix2 o k)) + pm (b (ix2 (0 : Fin 1) o))

def layer (x : (⟨2, ![8192, 4096]⟩ : Shape).Idx → EReal) (sw : (⟨2, ![4096, 4096]⟩ : Shape).Idx → EReal)
    (b : (⟨2, ![1, 4096]⟩ : Shape).Idx → EReal) : (⟨2, ![8192, 4096]⟩ : Shape).Idx → EReal :=
  fun i => layerAt x sw b (i 0) (i 1)

theorem layer_ix2 (x : (⟨2, ![8192, 4096]⟩ : Shape).Idx → EReal) (sw : (⟨2, ![4096, 4096]⟩ : Shape).Idx → EReal)
    (b : (⟨2, ![1, 4096]⟩ : Shape).Idx → EReal) (t : Fin 8192) (o : Fin 4096) :
    layer x sw b (ix2 t o) = layerAt x sw b t o := rfl

/-- Fed the ±1 of the weights and the bias vector reshaped to a row, the layer is the binary linear layer. -/
theorem layer_eq_out (x : (⟨2, ![8192, 4096]⟩ : Shape).Idx → EReal) (w : (⟨2, ![4096, 4096]⟩ : Shape).Idx → EReal)
    (b : (⟨1, ![4096]⟩ : Shape).Idx → EReal) (h : (⟨1, ![4096]⟩ : Shape).ShapeCasts ⟨2, ![1, 4096]⟩) :
    layer x (fun j => pm (w j)) (shapeCast ⟨2, ![1, 4096]⟩ b h) = out x w b := by
  funext i
  obtain ⟨t, o, rfl⟩ : ∃ (t : Fin 8192) (o : Fin 4096), i = ix2 t o := ⟨i 0, i 1, eq_ix2 i⟩
  rw [layer_ix2, out_ix2]
  unfold layerAt outAt
  rw [shapeCast_a_1a_apply]

end Cert.BinaryLinear

end
-- ==== Proof.MatmulArray.lean ====
/-
  The second launch, as a whole array: after it the result buffer holds the affine layer of the three arrays the
  launch reads — `x`, the (already quantised) weight buffer and the bias row.

  The launch walks 64 blocks of 128 whole rows of `x` and of the result; the weight buffer and the bias row are
  each one block, the same at every point. Entry (p, o) of what point `t` stores depends on row 128·t + p of `x`, on
  weight row `o` and on bias entry `o`: exactly the layer's entry (128·t + p, o). The 64 blocks cover every row.
-/
import proofs.«127940_j31353261261103_2_alg».proof.Proof.Gen.KernelIdeal.Frame
import proofs.«127940_j31353261261103_2_alg».proof.Proof.Bodies
import proofs.«127940_j31353261261103_2_alg».proof.Proof.Layer
import Idealize.ShloMosaic.Lib.Pipeline.Value

set_option maxRecDepth 16384

noncomputable section

namespace Cert.BinaryLinear.Kern

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.BinaryLinear

variable (V : (c : Dev nD) → (b : Ref sig .tc) → Buf (Elt Ideal) ((c : Thread nD τ).loc b))

theorem no_offsets : (![0, 0] : Fin 2 → Nat) = fun _ => 0 := funext fun a => by fin_cases a <;> rfl

/-- Where the four windows' blocks sit at a point: `x` and the result on row block `t`; the weights and the bias
    row on their one block. -/
theorem mm_blocks : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of `x` at point `t` is rows 128·t … 128·t + 127. -/
theorem x_block_at (c : Dev nD) (t : Fin cfg1.N) (y : S128x4096.Idx) (k : S8192x4096.Idx)
    (h0 : (k 0).val = t.val * 128 + (y 0).val) (h1 : (k 1).val = (y 1).val) :
    (iblk1 V c 0 t : Vec Ideal S128x4096 .f32) y = (V c main_arg0 : S8192x4096.Idx → EReal) k := by
  obtain ⟨e0, e1, -⟩ := mm_blocks t
  unfold iblk1
  rw [View.read_apply]
  show V c main_arg0 _ = V c main_arg0 _
  refine congrArg (V c main_arg0) ?_
  funext a; apply Fin.ext
  match a with
  | ⟨0, _⟩ => show win1_0.index t (0 : Fin 2) * 128 + 1 * (y 0).val = (k 0).val; rw [e0, h0]; omega
  | ⟨1, _⟩ => show win1_0.index t (1 : Fin 2) * 4096 + 1 * (y 1).val = (k 1).val; rw [e1, h1]; omega

/-- The weight window's block is the whole weight buffer, at every point. -/
theorem w_block_at (c : Dev nD) (t : Fin cfg1.N) (y : S4096x4096.Idx) :
    (iblk1 V c 1 t : Vec Ideal S4096x4096 .bf16) y = (V c main_v0 : S4096x4096.Idx → EReal) y := by
  obtain ⟨-, -, e0, e1, -⟩ := mm_blocks t
  unfold iblk1
  rw [View.read_apply]
  show V c main_v0 _ = V c main_v0 _
  refine congrArg (V c main_v0) ?_
  funext a; apply Fin.ext
  match a with
  | ⟨0, _⟩ => show win1_1.index t (0 : Fin 2) * 4096 + 1 * (y 0).val = (y 0).val; rw [e0]; omega
  | ⟨1, _⟩ => show win1_1.index t (1 : Fin 2) * 4096 + 1 * (y 1).val = (y 1).val; rw [e1]; omega

/-- The bias window's block is the whole bias row, at every point. -/
theorem b_block_at (c : Dev nD) (t : Fin cfg1.N) (y : S1x4096.Idx) :
    (iblk1 V c 2 t : Vec Ideal S1x4096 .f32) y = (V c main_v1 : S1x4096.Idx → EReal) y := by
  obtain ⟨-, -, -, -, e0, e1, -⟩ := mm_blocks t
  unfold iblk1
  rw [View.read_apply]
  show V c main_v1 _ = V c main_v1 _
  refine congrArg (V c main_v1) ?_
  funext a; apply Fin.ext
  match a with
  | ⟨0, _⟩ => show win1_2.index t (0 : Fin 2) * 1 + 1 * (y 0).val = (y 0).val; rw [e0]; omega
  | ⟨1, _⟩ => show win1_2.index t (1 : Fin 2) * 4096 + 1 * (y 1).val = (y 1).val; rw [e1]; omega

/-- The whole-array function the second launch computes. -/
abbrev affine (c : Dev nD) : S8192x4096.Idx → EReal := layer (V c main_arg0) (V c main_v0) (V c main_v1)

/-- Entry `y` of what point `t` stores is the layer's entry at the array index `i` that `y` sits at. -/
theorem mm_point (c : Dev nD) (t : Fin cfg1.N) (y : S128x4096.Idx) (i : S8192x4096.Idx)
    (h0 : (i 0).val = t.val * 128 + (y 0).val) (h1 : (i 1).val = (y 1).val) :
    k1_pay1 (F := Ideal) (iblk1 V c 0 t) (iblk1 V c 1 t) (iblk1 V c 2 t) y = affine V c i := by
  obtain ⟨p, o, rfl⟩ : ∃ (p : Fin 128) (o : Fin 4096), y = ix2 p o := ⟨y 0, y 1, eq_ix2 y⟩
  obtain ⟨r, o', rfl⟩ : ∃ (r : Fin 8192) (o' : Fin 4096), i = ix2 r o' := ⟨i 0, i 1, eq_ix2 i⟩
  obtain rfl : o' = o := Fin.ext h1
  refine (matmul_at (iblk1 V c 0 t) (iblk1 V c 1 t) (iblk1 V c 2 t) p o').trans ?_
  show _ = layerAt (V c main_arg0) (V c main_v0) (V c main_v1) r o'
  unfold layerAt
  refine congrArg₂ (· + ·) (Finset.sum_congr rfl fun k _ => ?_) ?_
  · rw [x_block_at V c t (ix2 p k) (ix2 r k) h0 rfl, w_block_at V c t (ix2 o' k)]
  · rw [b_block_at V c t (ix2 (0 : Fin 1) o')]

/-- What point `t` writes back is block `t` of the layer's output. -/
theorem mm_flushed (c : Dev nD) (t : Fin cfg1.N) :
    (dat1 V c).flushed 3 t = ((cfg1.win 3).blk t).view.read (Elt Ideal) (affine V c) := by
  show (cfg1.win 3).cut (grid1.coords t) ((dat1 V c).after 3 t) = _
  rw [after1_3]
  unfold out1_3
  rw [View.canon_unit_zero no_offsets]
  simp only [View.ld_unit_zero (S := S128x4096) no_offsets, View.ld_unit_zero (S := S4096x4096) no_offsets,
    View.ld_unit_zero (S := S1x4096) no_offsets]
  obtain ⟨-, -, -, -, -, -, e0, e1⟩ := mm_blocks t
  funext y
  refine mm_point V c t y (((cfg1.win 3).blk t).view.emb y) ?_ ?_
  · show win1_3.index t (0 : Fin 2) * 128 + 1 * (y 0).val = t.val * 128 + (y 0).val; rw [e0]; omega
  · show win1_3.index t (1 : Fin 2) * 4096 + 1 * (y 1).val = (y 1).val; rw [e1]; omega

/-- An index is in point `t`'s block iff each coordinate is in the block's range on its axis. -/
theorem mm_mem (t : Fin cfg1.N) (i : S8192x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v2).slice (win1_3.rect t)).set ↔ _
  rw [View.set_slice_whole, Rect.mem_set_unit]
  exact Iff.rfl

/-- Row `r` lies in block `r / 128`: the 64 blocks cover the result. -/
theorem mm_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : grid1.N = 64 := N_1
  have ht : (i 0).val / 128 < grid1.N := by rw [hN]; omega
  obtain ⟨-, -, -, -, -, -, e2, e3⟩ := mm_blocks ⟨(i 0).val / 128, ht⟩
  refine ⟨⟨(i 0).val / 128, ht⟩, flush1_3 _, ?_⟩
  rw [mm_mem]
  intro a
  match a with
  | ⟨0, _⟩ =>
    show win1_3.index ⟨(i 0).val / 128, ht⟩ (0 : Fin 2) * 128 ≤ (i 0).val ∧ (i 0).val < win1_3.index ⟨(i 0).val / 128, ht⟩ (0 : Fin 2) * 128 + 128
    rw [e2]; show (i 0).val / 128 * 128 ≤ (i 0).val ∧ (i 0).val < (i 0).val / 128 * 128 + 128; omega
  | ⟨1, _⟩ =>
    show win1_3.index ⟨(i 0).val / 128, ht⟩ (1 : Fin 2) * 4096 ≤ (i 1).val ∧ (i 1).val < win1_3.index ⟨(i 0).val / 128, ht⟩ (1 : Fin 2) * 4096 + 4096
    rw [e3]; omega

/-- The result buffer after the second launch. -/
theorem mm_final (c : Dev nD) : (dat1 V c).arrAt 3 cfg1.N = affine V c :=
  (dat1 V c).arrAt_eq_of_cover 3 (affine V c) (fun t _ => mm_flushed V c t) mm_cover

end Cert.BinaryLinear.Kern

end
-- ==== Proof.KernelValue.lean ====
/-
  The kernel program's result, as a function of its three arguments.

  Follow each array to the second launch's entry: `x` is never written, so it arrives as launched; the quantised
  weight buffer was written by the first launch only, so it arrives holding ±1 of the weights; the bias row is the host
  reshape of the bias vector, which nothing before it wrote. The second launch leaves the affine layer of those three
  in the result buffer, and that layer is the binary linear layer of the arguments.
-/
import proofs.«127940_j31353261261103_2_alg».proof.Proof.Gen.KernelIdeal.Frame
import proofs.«127940_j31353261261103_2_alg».proof.Proof.QuantArray
import proofs.«127940_j31353261261103_2_alg».proof.Proof.MatmulArray
import proofs.«127940_j31353261261103_2_alg».proof.Proof.Layer
import Idealize.ShloMosaic.Lib.StableHlo.Run

set_option maxRecDepth 16384

noncomputable section

namespace Cert.BinaryLinear.Kern

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.BinaryLinear

variable (m : (ℓ : Loc nD τ sig) → Buf (Elt Ideal) ℓ) (ρ : Dev nD → PrngReg)

/-- `x` at the second launch's entry is `x` as launched. -/
theorem x_at_entry (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The weight buffer at the second launch's entry holds ±1 of the weights: the reshape between the launches does
    not write it, and the first launch left exactly that. -/
theorem w_at_entry (c : Dev nD) :
    (V2 m ρ c main_v0 : S4096x4096.Idx → EReal) = fun j => pm (m ((c : Thread nD τ).loc main_arg1) j) := by
  have h1 : W2 m ρ c (Proc.devRef .tc main_v0) = W1 m ρ c (Proc.devRef .tc main_v0) :=
    StableHlo.after_of_forall_not_mem (b := Proc.devRef .tc main_v0) _ _ (List.forall_iff_forall_mem.mp (by
      simp only [hostOps1, List.Forall, StableHlo.reshape_writes, Finset.mem_singleton]
      repeat' apply And.intro
      all_goals exact StableHlo.devRef_ne_of_ne (by decide)))
  exact h1.trans ((W1_arr m ρ c 1).trans (quant_final (V0 m ρ) c))

/-- The bias row at the second launch's entry is the bias vector laid out as one row. -/
theorem b_at_entry (c : Dev nD) :
    (V2 m ρ c main_v1 : S1x4096.Idx → EReal)
      = shapeCast S1x4096 (m ((c : Thread nD τ).loc main_arg2)) Facts₀.shapeCasts_S4096_S1x4096 := by
  show StableHlo.after hostOps1 (W1 m ρ c) (Proc.devRef .tc main_v1) = _
  after_results
  rw [W1_of_ne m ρ c main_arg2 (by decide)]
  rfl

/-- The result buffer at the end of the run is the binary linear layer of the three arguments. -/
theorem result_eq (c : Dev nD) :
    (V3 m ρ c main_v2 : S8192x4096.Idx → EReal)
      = out (m ((c : Thread nD τ).loc main_arg0)) (m ((c : Thread nD τ).loc main_arg1)) (m ((c : Thread nD τ).loc main_arg2)) :=
  ((W3_arr m ρ c 3).trans (mm_final (V2 m ρ) c)).trans
    ((congr (congr (congrArg layer (x_at_entry m ρ c)) (w_at_entry m ρ c)) (b_at_entry m ρ c)).trans
      (layer_eq_out _ _ _ Facts₀.shapeCasts_S4096_S1x4096))

end Cert.BinaryLinear.Kern

end
-- ==== Proof.lean ====
/-
  A binary linear layer, y = x · sign(W)ᵀ + sign(b) with sign(z) = +1 for z ≥ 0 and -1 for z < 0, computed two ways.

  The kernel program first replaces the weight matrix by its ±1 (one launch, block by block), lays the bias out as a
  row, and then, 128 rows of `x` at a time, multiplies the rows with the ±1 matrix (contracting the input-feature
  coordinate of both) and adds the ±1 of the bias row. The reference does the same on whole arrays. On the extended
  reals a change of float format is the identity and a matrix product into a zero accumulator is the plain sum, so
  both end at

      out (t, o) = Σ_i x (t, i) · pm (w (o, i)) + pm (b o)

  with the same three constants 0, 1, -1 on both sides. No algebraic law is needed to join the two sides: the kernel's
  blocks are restrictions of the one whole-array function, and the sums have the same terms in the same index. So the
  precondition (finite inputs) is never opened.

  The idealisation rewrote nothing in the kernel, so there is nothing to preserve.
-/
import proofs.«127940_j31353261261103_2_alg».proof.Defs
import proofs.«127940_j31353261261103_2_alg».proof.Proof.Gen.Kernel
import proofs.«127940_j31353261261103_2_alg».proof.Proof.Gen.Kernel.Skeleton
import proofs.«127940_j31353261261103_2_alg».proof.Proof.Gen.Kernel.Launch
import proofs.«127940_j31353261261103_2_alg».proof.Proof.Gen.Kernel.Points
import proofs.«127940_j31353261261103_2_alg».proof.Proof.Gen.Kernel.Frame
import proofs.«127940_j31353261261103_2_alg».proof.Proof.Gen.KernelIdeal
import proofs.«127940_j31353261261103_2_alg».proof.Proof.Gen.KernelIdeal.Skeleton
import proofs.«127940_j31353261261103_2_alg».proof.Proof.Gen.KernelIdeal.Launch
import proofs.«127940_j31353261261103_2_alg».proof.Proof.Gen.KernelIdeal.Points
import proofs.«127940_j31353261261103_2_alg».proof.Proof.Gen.KernelIdeal.Frame
import proofs.«127940_j31353261261103_2_alg».proof.Proof.Gen.ReferenceIdeal
import proofs.«127940_j31353261261103_2_alg».proof.Proof.Gen.Pre_finite_inputs
import proofs.«127940_j31353261261103_2_alg».proof.Proof.Gen.ReferenceIdeal.Run
import proofs.«127940_j31353261261103_2_alg».proof.Proof.Gen.ReferenceIdeal.Read
import proofs.«127940_j31353261261103_2_alg».proof.Proof.RefSide
import proofs.«127940_j31353261261103_2_alg».proof.Proof.KernelRun
import proofs.«127940_j31353261261103_2_alg».proof.Proof.KernelValue
import Idealize.ShloMosaic.Adequacy
import Idealize.ShloMosaic.Init

noncomputable section

namespace Cert.Proof

open Idealize.ShloMosaic Idealize.ShloMosaic.TcCoe Idealize.SL.Sem

/-- Each program runs to the end without a fault and leaves its arguments as they were. For the reference this is its
    run with the result forgotten. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the binary linear layer of those
    arguments in their result buffers. -/
theorem algebraic : Cert.algebraic_KernelIdeal_ReferenceIdeal := by
  intro m ρ m' ρ' _ hagree
  refine ⟨fun c => Cert.BinaryLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.BinaryLinear.Kern.result_eq m ρ c), (h c).2⟩)
      (Cert.BinaryLinear.Kern.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v11_eq, Cert.BinaryLinear.Ref.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
